-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 59
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S_, .f32⟩
  | 88 => ⟨S1600000, .f32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_c_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_23 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result buffer read.

  @main of the kernel is six segments: a stretch of host operations, a pallas_call, a second stretch, a second
  pallas_call, a third stretch, a third pallas_call.  The contents of the TensorCore's buffers at the six segment
  boundaries are a fold from the launch memory: a host stretch applies its operations, a pallas_call replaces each
  of its arrays by what its write-backs leave.  Every weakly fair execution terminates with every unscoped buffer
  at the last boundary's contents; here that fact is read at the result buffer, beside the six argument arrays.
-/
import proofs.«129711_j730144441187_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Out

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.Payload.lean ====
/-
  What each kernel body stores, at an entry, on the extended reals.

  Each body stores one `[5000, 128]` tile computed from the tiles it loaded.  Changes of float format are the
  identity, the matrix unit into the zero accumulator is the plain sum of products over the 128 contracted
  entries, a `[5000, 1]` column broadcast over lanes reads its row, a `[1, 128]` row broadcast over rows reads
  its lane.  So, at row `p` and lane `c` of the tile:
    * body 0 stores `(Σ_j x(p, j) · w(j, c)) · d(p)`;
    * body 1 stores `(Σ_j max(d(p) · (g(p, j) + h(p, j)) + b(j), 0) · w(j, c)) · d(p)`;
    * body 2 stores `d(p) · (g(p, c) + h(p, c)) + b(c)`.
-/
import proofs.«129711_j730144441187_2_alg».proof.Proof.Gen.KernelIdeal.Skeleton
import proofs.«129711_j730144441187_2_alg».proof.Proof.LibPlainDot
import proofs.«129711_j730144441187_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx

/-! ## The matrix unit's dimension record contracts axis 1 of the left tile with axis 0 of the right -/

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product into the zero accumulator at `(p, c)`: the sum over the 128 contracted entries. -/
theorem dot_apply {φ₁ φ₂ : FTy} (l : FVec Ideal S5000x128 φ₁) (r : FVec Ideal S128x128 φ₂) (p : Fin 5000) (c : Fin 128) :
    matmul dot_S5000x128_S128x128_S5000x128_1_0_0_1_n_n none l r (constant (F := Ideal) S5000x128 .f32 0x00000000#32) (ix2 p c)
      = ∑ j : Fin 128, l (ix2 p j) * r (ix2 j c) :=
  PlainDot.matmul_zero_apply dot_S5000x128_S128x128_S5000x128_1_0_0_1_n_n none rfl rfl lhs0 lhs1 rhs0 rhs1 l r p c

/-- A `[1, b]` row broadcast down `a` rows reads, at `(r, c)`, the row at lane `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The weight column of a tile, broadcast over the lanes, at `(p, c)`. -/
theorem col_apply (d : Vec Ideal S5000x1 .f32) (p : Fin 5000) (c : Fin 128) :
    broadcastTo S5000x128 (shapeCast S5000x1 d shapeCasts_S5000x1_S5000x1) broadcasts_S5000x1_S5000x128 (ix2 p c)
      = d (ix2 p (0 : Fin 1)) := by
  rw [Keepdims.broadcastTo_a1_ab_apply, shapeCast_self]

/-- The bias row of a tile, broadcast over the rows, at `(p, c)`. -/
theorem row_apply (b : Vec Ideal S1x128 .f32) (p : Fin 5000) (c : Fin 128) :
    broadcastTo S5000x128 (shapeCast S1x128 b shapeCasts_S1x128_S1x128) broadcasts_S1x128_S5000x128 (ix2 p c)
      = b (ix2 (0 : Fin 1) c) := by
  rw [broadcastTo_1b_ab_apply, shapeCast_self]

/-- Body 0: the product tile, each row scaled by its weight. -/
theorem pay0_apply (x : Vec Ideal S5000x128 .f32) (w : Vec Ideal S128x128 .f32) (d : Vec Ideal S5000x1 .f32)
    (p : Fin 5000) (c : Fin 128) :
    k0_pay1 x w d (ix2 p c) = (∑ j : Fin 128, x (ix2 p j) * w (ix2 j c)) * d (ix2 p (0 : Fin 1)) := by
  unfold k0_pay1
  show matmul dot_S5000x128_S128x128_S5000x128_1_0_0_1_n_n none (truncf .bf16 x bitsLt_bf16_f32) (truncf .bf16 w bitsLt_bf16_f32)
      (constant (F := Ideal) S5000x128 .f32 0x00000000#32) (ix2 p c)
    * broadcastTo S5000x128 (shapeCast S5000x1 d shapeCasts_S5000x1_S5000x1) broadcasts_S5000x1_S5000x128 (ix2 p c) = _
  rw [dot_apply, col_apply]
  rfl

/-- The value both finishing bodies form before the bias-dependent tail: weight times (arrivals plus own row),
    plus the bias. -/
theorem fin_apply (g h : Vec Ideal S5000x128 .f32) (d : Vec Ideal S5000x1 .f32) (b : Vec Ideal S1x128 .f32)
    (p : Fin 5000) (c : Fin 128) :
    k2_pay1 g h d b (ix2 p c) = d (ix2 p (0 : Fin 1)) * (g (ix2 p c) + h (ix2 p c)) + b (ix2 (0 : Fin 1) c) := by
  unfold k2_pay1
  show broadcastTo S5000x128 (shapeCast S5000x1 d shapeCasts_S5000x1_S5000x1) broadcasts_S5000x1_S5000x128 (ix2 p c)
      * (shapeCast S5000x128 g shapeCasts_S5000x128_S5000x128 (ix2 p c) + shapeCast S5000x128 h shapeCasts_S5000x128_S5000x128 (ix2 p c))
    + broadcastTo S5000x128 (shapeCast S1x128 b shapeCasts_S1x128_S1x128) broadcasts_S1x128_S5000x128 (ix2 p c) = _
  rw [col_apply, row_apply, shapeCast_self, shapeCast_self]

/-- Body 1: the positive part of body 2's value, multiplied into the second weight matrix, rows scaled again. -/
theorem pay1_apply (g h : Vec Ideal S5000x128 .f32) (d : Vec Ideal S5000x1 .f32) (b : Vec Ideal S1x128 .f32)
    (w : Vec Ideal S128x128 .f32) (p : Fin 5000) (c : Fin 128) :
    k1_pay1 g h d b w d (ix2 p c)
      = (∑ j : Fin 128, max (d (ix2 p (0 : Fin 1)) * (g (ix2 p j) + h (ix2 p j)) + b (ix2 (0 : Fin 1) j)) 0 * w (ix2 j c))
        * d (ix2 p (0 : Fin 1)) := by
  unfold k1_pay1
  show matmul dot_S5000x128_S128x128_S5000x128_1_0_0_1_n_n none
      (truncf .bf16 (maximumf (addf (mulf (broadcastTo S5000x128 (shapeCast S5000x1 d shapeCasts_S5000x1_S5000x1) broadcasts_S5000x1_S5000x128)
          (addf (shapeCast S5000x128 g shapeCasts_S5000x128_S5000x128) (shapeCast S5000x128 h shapeCasts_S5000x128_S5000x128)))
          (broadcastTo S5000x128 (shapeCast S1x128 b shapeCasts_S1x128_S1x128) broadcasts_S1x128_S5000x128))
        (broadcast S5000x128 (Scalar.ofBits (F := Ideal) .f32 0x00000000#32))) bitsLt_bf16_f32)
      (truncf .bf16 w bitsLt_bf16_f32) (constant (F := Ideal) S5000x128 .f32 0x00000000#32) (ix2 p c)
    * broadcastTo S5000x128 (shapeCast S5000x1 d shapeCasts_S5000x1_S5000x1) broadcasts_S5000x1_S5000x128 (ix2 p c) = _
  rw [dot_apply, col_apply]
  refine congrArg (· * d (ix2 p (0 : Fin 1))) (Finset.sum_congr rfl fun j _ => ?_)
  refine congrArg (· * w (ix2 j c)) ?_
  show max (broadcastTo S5000x128 (shapeCast S5000x1 d shapeCasts_S5000x1_S5000x1) broadcasts_S5000x1_S5000x128 (ix2 p j)
      * (shapeCast S5000x128 g shapeCasts_S5000x128_S5000x128 (ix2 p j) + shapeCast S5000x128 h shapeCasts_S5000x128_S5000x128 (ix2 p j))
    + broadcastTo S5000x128 (shapeCast S1x128 b shapeCasts_S1x128_S1x128) broadcasts_S1x128_S5000x128 (ix2 p j))
    (Ideal.ofBits .f32 0x00000000#32) = _
  rw [col_apply, row_apply, shapeCast_self, shapeCast_self, Ideal.ofBits_zero_f32]

end Cert.KernelIdeal.Pay

end
-- ==== Proof.Region0.lean ====
/-
  The first pallas_call's output array as one function of the arrays the call finds.

  The grid has twenty points; point `t` reads rows `5000·t … 5000·t + 4999` of the node features and of the weight
  column, the whole `[128, 128]` matrix, and writes the same rows of the output.  So the twenty write-backs tile
  the output, and entry `(n, c)` ends holding `(Σ_j x(n, j) · w(j, c)) · d(n)`.
-/
import proofs.«129711_j730144441187_2_alg».proof.Proof.Gen.KernelIdeal.Frame
import proofs.«129711_j730144441187_2_alg».proof.Proof.Payload
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The first call's output as one function of its three arrays: the product `x · w`, each row scaled by its
    node's weight. -/
def out (x : FVec Ideal S100000x128 .f32) (w : FVec Ideal S128x128 .f32) (d : FVec Ideal S100000x1 .f32) :
    FVec Ideal S100000x128 .f32 :=
  fun i => (∑ j : Fin 128, x (ix2 (i 0) j) * w (ix2 j (i 1))) * d (ix2 (i 0) (0 : Fin 1))

/-- The printed index maps, decided over the twenty grid points: a row tile or a weight column moves with the
    point, the shared operands stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is tile `t` of that function of the arrays as the call finds them. -/
theorem flushed_eq (c : Dev nD) (t : Fin cfg0.N) :
    (dat0 V c).flushed 3 t = ((cfg0.win 3).blk t).view.read (Elt Ideal) (out (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  have ht : t.val < 20 := lt_of_lt_of_eq t.isLt N_0
  funext y
  obtain ⟨p, q, rfl⟩ : ∃ (p : Fin 5000) (q : Fin 128), y = ix2 p q := ⟨y 0, y 1, eq_ix2 y⟩
  have hp := p.isLt
  let r : Fin 100000 := ⟨t.val * 5000 + p.val, by omega⟩
  have hrow0 : ∀ j : Fin 128, iblk0 V c 0 t (ix2 p j) = (V c main_arg0 : FVec Ideal S100000x128 .f32) (ix2 r j) := fun j => by
    show (V c main_arg0 : FVec Ideal S100000x128 .f32) (((cfg0.win 0).blk t).view.emb (ix2 p j)) = _
    refine congrArg (V c main_arg0 : FVec Ideal S100000x128 .f32) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * j.val = j.val; omega
  have hmat1 : ∀ i j : Fin 128, iblk0 V c 1 t (ix2 i j) = (V c main_arg2 : FVec Ideal S128x128 .f32) (ix2 i j) := fun i j => by
    show (V c main_arg2 : FVec Ideal S128x128 .f32) (((cfg0.win 1).blk t).view.emb (ix2 i j)) = _
    refine congrArg (V c main_arg2 : FVec Ideal S128x128 .f32) ?_
    funext a; apply Fin.ext
    match a with
    | ⟨0, _⟩ => show win0_1.index t (0 : Fin 2) * 128 + 1 * i.val = i.val; omega
    | ⟨1, _⟩ => show win0_1.index t (1 : Fin 2) * 128 + 1 * j.val = j.val; omega
  have hcol2 : iblk0 V c 2 t (ix2 p (0 : Fin 1)) = (V c main_v16 : FVec Ideal S100000x1 .f32) (ix2 r (0 : Fin 1)) := by
    show (V c main_v16 : FVec Ideal S100000x1 .f32) (((cfg0.win 2).blk t).view.emb (ix2 p (0 : Fin 1))) = _
    refine congrArg (V c main_v16 : FVec Ideal S100000x1 .f32) ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  have hemb : ((cfg0.win 3).blk t).view.emb (ix2 p q) = (ix2 r q : S100000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  refine (Pay.pay0_apply (iblk0 V c 0 t) (iblk0 V c 1 t) (iblk0 V c 2 t) p q).trans ?_
  show _ = out (V c main_arg0) (V c main_arg2) (V c main_v16) (((cfg0.win 3).blk t).view.emb (ix2 p q))
  rw [hemb]
  rw [hcol2, Finset.sum_congr rfl fun j _ => by rw [hrow0 j, hmat1 j q]]
  rfl

/-- An index of the output array is in point `t`'s tile iff each coordinate is in the tile's range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- The twenty row tiles cover the output array: row `n` is in tile `n / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨e0, e1, e2, e3, e4, e5, e6, e7⟩ := idx_facts t
  have htv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the call. -/
theorem final (c : Dev nD) : (dat0 V c).arrAt 3 cfg0.N = out (V c main_arg0) (V c main_arg2) (V c main_v16) :=
  (dat0 V c).arrAt_eq_of_cover 3 _ (fun t _ => flushed_eq V c t) (cover)

end Cert.KernelIdeal.Reg0

end
-- ==== Proof.ChainA.lean ====
/-
  The buffers the three pallas_calls read, traced from the launch memory: the first host stretch and the first call.

  The first stretch of host operations computes, from the edge list alone, the two index rows (sources and
  destinations) and the column of node weights, and reshapes the two bias vectors to rows; it writes no argument.
  The first call then writes the scaled product and leaves every other buffer as it was.
-/
import proofs.«129711_j730144441187_2_alg».proof.Proof.Gen.KernelIdeal.Frame
import proofs.«129711_j730144441187_2_alg».proof.Proof.Gen.ReferenceIdeal.Read
import proofs.«129711_j730144441187_2_alg».proof.Proof.Region0
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Cert.ReferenceIdeal.Read (val_main_v1 val_main_v3 val_main_v16)

variable (m : (ℓ : Loc nD τ sig) → Buf (Elt Ideal) ℓ) (ρ : Dev nD → PrngReg) (c : Dev nD)

/-! ## After the first host stretch -/

theorem A_v1 : (W1 m ρ c (Proc.devRef .tc main_v1) : IVec S1600000 32)
    = val_main_v1 (F := Ideal) (m ((c : Thread nD τ).loc main_arg1)) := by
  show StableHlo.after hostOps0 (W0 m ρ c) (Proc.devRef .tc main_v1) = _
  dsimp only [hostOps0]
  after_results
  rfl

theorem A_v3 : (W1 m ρ c (Proc.devRef .tc main_v3) : IVec S1600000 32)
    = val_main_v3 (F := Ideal) (m ((c : Thread nD τ).loc main_arg1)) := by
  show StableHlo.after hostOps0 (W0 m ρ c) (Proc.devRef .tc main_v3) = _
  dsimp only [hostOps0]
  after_results
  rfl

/-- The weight column: the node weights, one per row. -/
theorem A_v16 : (W1 m ρ c (Proc.devRef .tc main_v16) : FVec Ideal S100000x1 .f32)
    = shapeCast S100000x1 (val_main_v16 (F := Ideal) (m ((c : Thread nD τ).loc main_arg1))) shapeCasts_S100000_S100000x1 := by
  show StableHlo.after hostOps0 (W0 m ρ c) (Proc.devRef .tc main_v16) = _
  dsimp only [hostOps0]
  after_results
  rfl

theorem A_v17 : (W1 m ρ c (Proc.devRef .tc main_v17) : FVec Ideal S1x128 .f32)
    = shapeCast S1x128 (m ((c : Thread nD τ).loc main_arg3)) shapeCasts_S128_S1x128 := by
  show StableHlo.after hostOps0 (W0 m ρ c) (Proc.devRef .tc main_v17) = _
  dsimp only [hostOps0]
  after_results
  rfl

theorem A_v18 : (W1 m ρ c (Proc.devRef .tc main_v18) : FVec Ideal S1x128 .f32)
    = shapeCast S1x128 (m ((c : Thread nD τ).loc main_arg5)) shapeCasts_S128_S1x128 := by
  show StableHlo.after hostOps0 (W0 m ρ c) (Proc.devRef .tc main_v18) = _
  dsimp only [hostOps0]
  after_results
  rfl

theorem A_arg0 : W1 m ρ c (Proc.devRef .tc main_arg0) = m ((c : Thread nD τ).loc main_arg0) := by
  show StableHlo.after hostOps0 (W0 m ρ c) (Proc.devRef .tc main_arg0) = _
  dsimp only [hostOps0]
  after_results
  all_goals rfl

theorem A_arg2 : W1 m ρ c (Proc.devRef .tc main_arg2) = m ((c : Thread nD τ).loc main_arg2) := by
  show StableHlo.after hostOps0 (W0 m ρ c) (Proc.devRef .tc main_arg2) = _
  dsimp only [hostOps0]
  after_results
  all_goals rfl

theorem A_arg4 : W1 m ρ c (Proc.devRef .tc main_arg4) = m ((c : Thread nD τ).loc main_arg4) := by
  show StableHlo.after hostOps0 (W0 m ρ c) (Proc.devRef .tc main_arg4) = _
  dsimp only [hostOps0]
  after_results
  all_goals rfl

/-! ## After the first call -/

/-- The first call's output: the scaled product of the node features and the first weight matrix. -/
theorem B_v19 : (W2 m ρ c (Proc.devRef .tc main_v19) : FVec Ideal S100000x128 .f32)
    = Reg0.out (m ((c : Thread nD τ).loc main_arg0)) (m ((c : Thread nD τ).loc main_arg2))
        (shapeCast S100000x1 (val_main_v16 (F := Ideal) (m ((c : Thread nD τ).loc main_arg1))) shapeCasts_S100000_S100000x1) := by
  refine (W2_arr m ρ c 3).trans ((Reg0.final (V1 m ρ) c).trans ?_)
  show Reg0.out (W1 m ρ c (Proc.devRef .tc main_arg0)) (W1 m ρ c (Proc.devRef .tc main_arg2)) (W1 m ρ c (Proc.devRef .tc main_v16)) = _
  rw [A_arg0, A_arg2, A_v16]

theorem B_v1 : W2 m ρ c (Proc.devRef .tc main_v1) = W1 m ρ c (Proc.devRef .tc main_v1) := W2_of_ne m ρ c main_v1 (by decide)
theorem B_v3 : W2 m ρ c (Proc.devRef .tc main_v3) = W1 m ρ c (Proc.devRef .tc main_v3) := W2_of_ne m ρ c main_v3 (by decide)
theorem B_v17 : W2 m ρ c (Proc.devRef .tc main_v17) = W1 m ρ c (Proc.devRef .tc main_v17) := W2_of_ne m ρ c main_v17 (by decide)
theorem B_v18 : W2 m ρ c (Proc.devRef .tc main_v18) = W1 m ρ c (Proc.devRef .tc main_v18) := W2_of_ne m ρ c main_v18 (by decide)
theorem B_arg4 : W2 m ρ c (Proc.devRef .tc main_arg4) = W1 m ρ c (Proc.devRef .tc main_arg4) := W2_of_ne m ρ c main_arg4 (by decide)
/-- The weight column is an input of the call: it is read, not written. -/
theorem B_v16 : W2 m ρ c (Proc.devRef .tc main_v16) = W1 m ρ c (Proc.devRef .tc main_v16) :=
  (W2_arr m ρ c 2).trans (((dat0 (V1 m ρ) c).arrAt_in 2 rfl _).trans (A_eq0 (V1 m ρ) c 2))

end Cert.KernelIdeal.Chain

end
-- ==== Proof.Region1.lean ====
/-
  The second pallas_call's output array as one function of the arrays the call finds.

  Point `t` of the twenty reads rows `5000·t … 5000·t + 4999` of the arrivals, of the scaled rows and of the weight
  column, the whole bias row and the whole `[128, 128]` matrix, and writes the same rows of the output.  Entry
  `(n, c)` ends holding `(Σ_j max(d(n) · (g(n, j) + h(n, j)) + b(j), 0) · w(j, c)) · d(n)`.
-/
import proofs.«129711_j730144441187_2_alg».proof.Proof.Gen.KernelIdeal.Frame
import proofs.«129711_j730144441187_2_alg».proof.Proof.Payload
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The second call's output as one function of its five arrays: the positive part of
    `d(n) · (g + h) + b`, multiplied into `w`, each row scaled by its node's weight. -/
def out (g h : FVec Ideal S100000x128 .f32) (d : FVec Ideal S100000x1 .f32) (b : FVec Ideal S1x128 .f32)
    (w : FVec Ideal S128x128 .f32) : FVec Ideal S100000x128 .f32 :=
  fun i => (∑ j : Fin 128, max (d (ix2 (i 0) (0 : Fin 1)) * (g (ix2 (i 0) j) + h (ix2 (i 0) j)) + b (ix2 (0 : Fin 1) j)) 0
      * w (ix2 j (i 1))) * d (ix2 (i 0) (0 : Fin 1))

/-- The printed index maps, decided over the twenty grid points: a row tile or a weight column moves with the
    point, the shared operands stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is tile `t` of that function of the arrays as the call finds them. -/
theorem flushed_eq (c : Dev nD) (t : Fin cfg1.N) :
    (dat1 V c).flushed 5 t = ((cfg1.win 5).blk t).view.read (Elt Ideal) (out (V c main_v29) (V c main_v19) (V c main_v16) (V c main_v17) (V c main_arg4)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz, View.ld_unit_zero (S := S128x128) hz]
  obtain ⟨e0, e1, e2, e3, e4, e5, e6, e7, e8, e9, e10, e11⟩ := idx_facts t
  have ht : t.val < 20 := lt_of_lt_of_eq t.isLt N_1
  funext y
  obtain ⟨p, q, rfl⟩ : ∃ (p : Fin 5000) (q : Fin 128), y = ix2 p q := ⟨y 0, y 1, eq_ix2 y⟩
  have hp := p.isLt
  let r : Fin 100000 := ⟨t.val * 5000 + p.val, by omega⟩
  have hrow0 : ∀ j : Fin 128, iblk1 V c 0 t (ix2 p j) = (V c main_v29 : FVec Ideal S100000x128 .f32) (ix2 r j) := fun j => by
    show (V c main_v29 : FVec Ideal S100000x128 .f32) (((cfg1.win 0).blk t).view.emb (ix2 p j)) = _
    refine congrArg (V c main_v29 : FVec Ideal S100000x128 .f32) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * j.val = j.val; omega
  have hrow1 : ∀ j : Fin 128, iblk1 V c 1 t (ix2 p j) = (V c main_v19 : FVec Ideal S100000x128 .f32) (ix2 r j) := fun j => by
    show (V c main_v19 : FVec Ideal S100000x128 .f32) (((cfg1.win 1).blk t).view.emb (ix2 p j)) = _
    refine congrArg (V c main_v19 : FVec Ideal S100000x128 .f32) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * j.val = j.val; omega
  have hcol2 : iblk1 V c 2 t (ix2 p (0 : Fin 1)) = (V c main_v16 : FVec Ideal S100000x1 .f32) (ix2 r (0 : Fin 1)) := by
    show (V c main_v16 : FVec Ideal S100000x1 .f32) (((cfg1.win 2).blk t).view.emb (ix2 p (0 : Fin 1))) = _
    refine congrArg (V c main_v16 : FVec Ideal S100000x1 .f32) ?_
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have hbrow3 : ∀ j : Fin 128, iblk1 V c 3 t (ix2 (0 : Fin 1) j) = (V c main_v17 : FVec Ideal S1x128 .f32) (ix2 (0 : Fin 1) j) := fun j => by
    show (V c main_v17 : FVec Ideal S1x128 .f32) (((cfg1.win 3).blk t).view.emb (ix2 (0 : Fin 1) j)) = _
    refine congrArg (V c main_v17 : FVec Ideal S1x128 .f32) ?_
    funext a; apply Fin.ext
    match a with
    | ⟨0, _⟩ => show win1_3.index t (0 : Fin 2) * 1 + 1 * 0 = 0; omega
    | ⟨1, _⟩ => show win1_3.index t (1 : Fin 2) * 128 + 1 * j.val = j.val; omega
  have hmat4 : ∀ i j : Fin 128, iblk1 V c 4 t (ix2 i j) = (V c main_arg4 : FVec Ideal S128x128 .f32) (ix2 i j) := fun i j => by
    show (V c main_arg4 : FVec Ideal S128x128 .f32) (((cfg1.win 4).blk t).view.emb (ix2 i j)) = _
    refine congrArg (V c main_arg4 : FVec Ideal S128x128 .f32) ?_
    funext a; apply Fin.ext
    match a with
    | ⟨0, _⟩ => show win1_4.index t (0 : Fin 2) * 128 + 1 * i.val = i.val; omega
    | ⟨1, _⟩ => show win1_4.index t (1 : Fin 2) * 128 + 1 * j.val = j.val; omega
  have hemb : ((cfg1.win 5).blk t).view.emb (ix2 p q) = (ix2 r q : S100000x128.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  refine (Pay.pay1_apply (iblk1 V c 0 t) (iblk1 V c 1 t) (iblk1 V c 2 t) (iblk1 V c 3 t) (iblk1 V c 4 t) p q).trans ?_
  show _ = out (V c main_v29) (V c main_v19) (V c main_v16) (V c main_v17) (V c main_arg4) (((cfg1.win 5).blk t).view.emb (ix2 p q))
  rw [hemb]
  rw [hcol2, Finset.sum_congr rfl fun j _ => by rw [hrow0 j, hrow1 j, hbrow3 j, hmat4 j q]]
  rfl

/-- An index of the output array is in point `t`'s tile iff each coordinate is in the tile's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- The twenty row tiles cover the output array: row `n` is in tile `n / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨e0, e1, e2, e3, e4, e5, e6, e7, e8, e9, e10, e11⟩ := idx_facts t
  have htv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the call. -/
theorem final (c : Dev nD) : (dat1 V c).arrAt 5 cfg1.N = out (V c main_v29) (V c main_v19) (V c main_v16) (V c main_v17) (V c main_arg4) :=
  (dat1 V c).arrAt_eq_of_cover 5 _ (fun t _ => flushed_eq V c t) (cover)

end Cert.KernelIdeal.Reg1

end
-- ==== Proof.Region2.lean ====
/-
  The third pallas_call's output array as one function of the arrays the call finds.

  Point `t` of the twenty reads rows `5000·t … 5000·t + 4999` of the arrivals, of the scaled rows and of the weight
  column and the whole bias row, and writes the same rows of the output.  Entry `(n, c)` ends holding
  `d(n) · (g(n, c) + h(n, c)) + b(c)`.
-/
import proofs.«129711_j730144441187_2_alg».proof.Proof.Gen.KernelIdeal.Frame
import proofs.«129711_j730144441187_2_alg».proof.Proof.Payload
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The third call's output as one function of its four arrays: `d(n) · (g + h) + b`. -/
def out (g h : FVec Ideal S100000x128 .f32) (d : FVec Ideal S100000x1 .f32) (b : FVec Ideal S1x128 .f32) :
    FVec Ideal S100000x128 .f32 :=
  fun i => d (ix2 (i 0) (0 : Fin 1)) * (g (ix2 (i 0) (i 1)) + h (ix2 (i 0) (i 1))) + b (ix2 (0 : Fin 1) (i 1))

/-- The printed index maps, decided over the twenty grid points: a row tile or a weight column moves with the
    point, the shared operands stay at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is tile `t` of that function of the arrays as the call finds them. -/
theorem flushed_eq (c : Dev nD) (t : Fin cfg2.N) :
    (dat2 V c).flushed 4 t = ((cfg2.win 4).blk t).view.read (Elt Ideal) (out (V c main_v40) (V c main_v30) (V c main_v16) (V c main_v18)) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  have ht : t.val < 20 := lt_of_lt_of_eq t.isLt N_2
  funext y
  obtain ⟨p, q, rfl⟩ : ∃ (p : Fin 5000) (q : Fin 128), y = ix2 p q := ⟨y 0, y 1, eq_ix2 y⟩
  have hp := p.isLt
  let r : Fin 100000 := ⟨t.val * 5000 + p.val, by omega⟩
  have hrow0 : ∀ j : Fin 128, iblk2 V c 0 t (ix2 p j) = (V c main_v40 : FVec Ideal S100000x128 .f32) (ix2 r j) := fun j => by
    show (V c main_v40 : FVec Ideal S100000x128 .f32) (((cfg2.win 0).blk t).view.emb (ix2 p j)) = _
    refine congrArg (V c main_v40 : FVec Ideal S100000x128 .f32) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * j.val = j.val; omega
  have hrow1 : ∀ j : Fin 128, iblk2 V c 1 t (ix2 p j) = (V c main_v30 : FVec Ideal S100000x128 .f32) (ix2 r j) := fun j => by
    show (V c main_v30 : FVec Ideal S100000x128 .f32) (((cfg2.win 1).blk t).view.emb (ix2 p j)) = _
    refine congrArg (V c main_v30 : FVec Ideal S100000x128 .f32) ?_
    funext a; apply Fin.ext
    match a with
    | ⟨0, _⟩ => show win2_1.index t (0 : Fin 2) * 5000 + 1 * p.val = t.val * 5000 + p.val; omega
    | ⟨1, _⟩ => show win2_1.index t (1 : Fin 2) * 128 + 1 * j.val = j.val; omega
  have hcol2 : iblk2 V c 2 t (ix2 p (0 : Fin 1)) = (V c main_v16 : FVec Ideal S100000x1 .f32) (ix2 r (0 : Fin 1)) := by
    show (V c main_v16 : FVec Ideal S100000x1 .f32) (((cfg2.win 2).blk t).view.emb (ix2 p (0 : Fin 1))) = _
    refine congrArg (V c main_v16 : FVec Ideal S100000x1 .f32) ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have hbrow3 : ∀ j : Fin 128, iblk2 V c 3 t (ix2 (0 : Fin 1) j) = (V c main_v18 : FVec Ideal S1x128 .f32) (ix2 (0 : Fin 1) j) := fun j => by
    show (V c main_v18 : FVec Ideal S1x128 .f32) (((cfg2.win 3).blk t).view.emb (ix2 (0 : Fin 1) j)) = _
    refine congrArg (V c main_v18 : FVec Ideal S1x128 .f32) ?_
    funext a; apply Fin.ext
    match a with
    | ⟨0, _⟩ => show win2_3.index t (0 : Fin 2) * 1 + 1 * 0 = 0; omega
    | ⟨1, _⟩ => show win2_3.index t (1 : Fin 2) * 128 + 1 * j.val = j.val; omega
  have hemb : ((cfg2.win 4).blk t).view.emb (ix2 p q) = (ix2 r q : S100000x128.Idx) := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  refine (Pay.fin_apply (iblk2 V c 0 t) (iblk2 V c 1 t) (iblk2 V c 2 t) (iblk2 V c 3 t) p q).trans ?_
  show _ = out (V c main_v40) (V c main_v30) (V c main_v16) (V c main_v18) (((cfg2.win 4).blk t).view.emb (ix2 p q))
  rw [hemb]
  rw [hcol2, hrow0 q, hrow1 q, hbrow3 q]
  rfl

/-- An index of the output array is in point `t`'s tile iff each coordinate is in the tile's range. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v41).slice (win2_4.rect t)).set ↔ _
  rw [View.set_slice_whole, Rect.mem_set_unit]
  exact Iff.rfl

/-- The twenty row tiles cover the output array: row `n` is in tile `n / 5000`. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  obtain ⟨e0, e1, e2, e3, e4, e5, e6, e7, e8, e9⟩ := idx_facts t
  have htv : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the call. -/
theorem final (c : Dev nD) : (dat2 V c).arrAt 4 cfg2.N = out (V c main_v40) (V c main_v30) (V c main_v16) (V c main_v18) :=
  (dat2 V c).arrAt_eq_of_cover 4 _ (fun t _ => flushed_eq V c t) (cover)

end Cert.KernelIdeal.Reg2

end
-- ==== Proof.ChainB.lean ====
/-
  The buffers the second and third pallas_calls read, and the result.

  Between the calls the host looks up, for every edge, the row of the previous call's output at the edge's source
  (negative sources wrapped round) and accumulates the rows, from zero, at the edges' raw destinations: the
  neighbour sum `nbrSum`.  Nothing else changes between the calls, so each call finds the weight column and its
  bias row as the first stretch left them.  Composing the three calls' output functions with the two neighbour sums
  gives the result buffer as one function of the launch memory.
-/
import proofs.«129711_j730144441187_2_alg».proof.Proof.ChainA
import proofs.«129711_j730144441187_2_alg».proof.Proof.Region1
import proofs.«129711_j730144441187_2_alg».proof.Proof.Region2

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Cert.ReferenceIdeal.Read (val_main_v1 val_main_v3 val_main_v16 val_main_v37 val_main_v42 val_main_v43)

/-- The neighbour sum of an array of rows: looked up at the wrapped sources, accumulated from zero at the raw
    destinations. -/
def nbrSum (h : FVec Ideal S100000x128 .f32) (ei : IVec S2x1600000 32) : FVec Ideal S100000x128 .f32 :=
  Host.scatterAdd Cert.ReferenceIdeal.scatter_S100000x128_S1600000x1_S1600000x128_1_0_0_1 (val_main_v42 (F := Ideal)) (val_main_v43 (F := Ideal) ei)
    (Host.gather Cert.ReferenceIdeal.gather_S100000x128_S1600000x1_S1600000x128_1_0_n_n_0_1_1128 h (val_main_v37 (F := Ideal) ei))

variable (m : (ℓ : Loc nD τ sig) → Buf (Elt Ideal) ℓ) (ρ : Dev nD → PrngReg) (c : Dev nD)

/-- The weight column. -/
def dcol : FVec Ideal S100000x1 .f32 :=
  shapeCast S100000x1 (val_main_v16 (F := Ideal) (m ((c : Thread nD τ).loc main_arg1))) shapeCasts_S100000_S100000x1
/-- The two bias rows. -/
def b1row : FVec Ideal S1x128 .f32 := shapeCast S1x128 (m ((c : Thread nD τ).loc main_arg3)) shapeCasts_S128_S1x128
def b2row : FVec Ideal S1x128 .f32 := shapeCast S1x128 (m ((c : Thread nD τ).loc main_arg5)) shapeCasts_S128_S1x128
/-- The first call's output. -/
def hs1 : FVec Ideal S100000x128 .f32 :=
  Reg0.out (m ((c : Thread nD τ).loc main_arg0)) (m ((c : Thread nD τ).loc main_arg2)) (dcol m c)
/-- The second call's output. -/
def hs2 : FVec Ideal S100000x128 .f32 :=
  Reg1.out (nbrSum (hs1 m c) (m ((c : Thread nD τ).loc main_arg1))) (hs1 m c) (dcol m c) (b1row m c)
    (m ((c : Thread nD τ).loc main_arg4))
/-- The third call's output. -/
def out : FVec Ideal S100000x128 .f32 :=
  Reg2.out (nbrSum (hs2 m c) (m ((c : Thread nD τ).loc main_arg1))) (hs2 m c) (dcol m c) (b2row m c)

/-! ## After the second host stretch -/

theorem C_v19 : W3 m ρ c (Proc.devRef .tc main_v19) = W2 m ρ c (Proc.devRef .tc main_v19) := by
  show StableHlo.after hostOps1 (W2 m ρ c) (Proc.devRef .tc main_v19) = _
  dsimp only [hostOps1]
  after_results
  all_goals rfl

theorem C_v16 : W3 m ρ c (Proc.devRef .tc main_v16) = W2 m ρ c (Proc.devRef .tc main_v16) := by
  show StableHlo.after hostOps1 (W2 m ρ c) (Proc.devRef .tc main_v16) = _
  dsimp only [hostOps1]
  after_results
  all_goals rfl

theorem C_v17 : W3 m ρ c (Proc.devRef .tc main_v17) = W2 m ρ c (Proc.devRef .tc main_v17) := by
  show StableHlo.after hostOps1 (W2 m ρ c) (Proc.devRef .tc main_v17) = _
  dsimp only [hostOps1]
  after_results
  all_goals rfl

theorem C_v18 : W3 m ρ c (Proc.devRef .tc main_v18) = W2 m ρ c (Proc.devRef .tc main_v18) := by
  show StableHlo.after hostOps1 (W2 m ρ c) (Proc.devRef .tc main_v18) = _
  dsimp only [hostOps1]
  after_results
  all_goals rfl

theorem C_arg4 : W3 m ρ c (Proc.devRef .tc main_arg4) = W2 m ρ c (Proc.devRef .tc main_arg4) := by
  show StableHlo.after hostOps1 (W2 m ρ c) (Proc.devRef .tc main_arg4) = _
  dsimp only [hostOps1]
  after_results
  all_goals rfl

theorem C_v1 : W3 m ρ c (Proc.devRef .tc main_v1) = W2 m ρ c (Proc.devRef .tc main_v1) := by
  show StableHlo.after hostOps1 (W2 m ρ c) (Proc.devRef .tc main_v1) = _
  dsimp only [hostOps1]
  after_results
  all_goals rfl

theorem C_v3 : W3 m ρ c (Proc.devRef .tc main_v3) = W2 m ρ c (Proc.devRef .tc main_v3) := by
  show StableHlo.after hostOps1 (W2 m ρ c) (Proc.devRef .tc main_v3) = _
  dsimp only [hostOps1]
  after_results
  all_goals rfl

theorem C_v29 : (W3 m ρ c (Proc.devRef .tc main_v29) : FVec Ideal S100000x128 .f32)
    = nbrSum (hs1 m c) (m ((c : Thread nD τ).loc main_arg1)) := by
  show StableHlo.after hostOps1 (W2 m ρ c) (Proc.devRef .tc main_v29) = _
  dsimp only [hostOps1]
  after_results
  rw [B_v1, B_v3, A_v1, A_v3, B_v19]
  rfl

/-! ## After the second call -/

theorem D_v30 : (W4 m ρ c (Proc.devRef .tc main_v30) : FVec Ideal S100000x128 .f32) = hs2 m c := by
  refine (W4_arr m ρ c 5).trans ((Reg1.final (V3 m ρ) c).trans ?_)
  show Reg1.out (W3 m ρ c (Proc.devRef .tc main_v29)) (W3 m ρ c (Proc.devRef .tc main_v19)) (W3 m ρ c (Proc.devRef .tc main_v16))
    (W3 m ρ c (Proc.devRef .tc main_v17)) (W3 m ρ c (Proc.devRef .tc main_arg4)) = _
  rw [C_v29, C_v19, C_v16, C_v17, C_arg4, B_v19, B_v16, B_v17, B_arg4, A_v16, A_v17, A_arg4]
  rfl

theorem D_v1 : W4 m ρ c (Proc.devRef .tc main_v1) = W3 m ρ c (Proc.devRef .tc main_v1) := W4_of_ne m ρ c main_v1 (by decide)
theorem D_v3 : W4 m ρ c (Proc.devRef .tc main_v3) = W3 m ρ c (Proc.devRef .tc main_v3) := W4_of_ne m ρ c main_v3 (by decide)
theorem D_v18 : W4 m ρ c (Proc.devRef .tc main_v18) = W3 m ρ c (Proc.devRef .tc main_v18) := W4_of_ne m ρ c main_v18 (by decide)
theorem D_v16 : W4 m ρ c (Proc.devRef .tc main_v16) = W3 m ρ c (Proc.devRef .tc main_v16) :=
  (W4_arr m ρ c 2).trans (((dat1 (V3 m ρ) c).arrAt_in 2 rfl _).trans (A_eq1 (V3 m ρ) c 2))

/-! ## After the third host stretch -/

theorem E_v30 : W5 m ρ c (Proc.devRef .tc main_v30) = W4 m ρ c (Proc.devRef .tc main_v30) := by
  show StableHlo.after hostOps2 (W4 m ρ c) (Proc.devRef .tc main_v30) = _
  dsimp only [hostOps2]
  after_results
  all_goals rfl

theorem E_v16 : W5 m ρ c (Proc.devRef .tc main_v16) = W4 m ρ c (Proc.devRef .tc main_v16) := by
  show StableHlo.after hostOps2 (W4 m ρ c) (Proc.devRef .tc main_v16) = _
  dsimp only [hostOps2]
  after_results
  all_goals rfl

theorem E_v18 : W5 m ρ c (Proc.devRef .tc main_v18) = W4 m ρ c (Proc.devRef .tc main_v18) := by
  show StableHlo.after hostOps2 (W4 m ρ c) (Proc.devRef .tc main_v18) = _
  dsimp only [hostOps2]
  after_results
  all_goals rfl

theorem E_v40 : (W5 m ρ c (Proc.devRef .tc main_v40) : FVec Ideal S100000x128 .f32)
    = nbrSum (hs2 m c) (m ((c : Thread nD τ).loc main_arg1)) := by
  show StableHlo.after hostOps2 (W4 m ρ c) (Proc.devRef .tc main_v40) = _
  dsimp only [hostOps2]
  after_results
  rw [D_v1, D_v3, C_v1, C_v3, B_v1, B_v3, A_v1, A_v3, D_v30]
  rfl

/-! ## After the third call: the result -/

theorem result : (W6 m ρ c (Proc.devRef .tc main_v41) : FVec Ideal S100000x128 .f32) = out m c := by
  refine (W6_arr m ρ c 4).trans ((Reg2.final (V5 m ρ) c).trans ?_)
  show Reg2.out (W5 m ρ c (Proc.devRef .tc main_v40)) (W5 m ρ c (Proc.devRef .tc main_v30)) (W5 m ρ c (Proc.devRef .tc main_v16))
    (W5 m ρ c (Proc.devRef .tc main_v18)) = _
  rw [E_v40, E_v30, E_v16, E_v18, D_v30, D_v16, D_v18, C_v16, C_v18, B_v16, B_v18, A_v16, A_v18]
  rfl

end Cert.KernelIdeal.Chain

end
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.Spec.lean ====
/-
  Two arrangements of a graph-convolution layer, as functions of whole arrays.

  Nodes are rows of an `[N, C]` array; messages are the entries of an `[E, C]` array.  Entry `i` of the result
  collects the messages `j ∈ S i` that arrive at it; message `j` carries the input at the entry `sr j` it was
  taken from.  Node `n` has a weight `a n`; `q n` is the weight of its self-loop.

  * The first arrangement scales the input's rows by the weights once (`scaleRows`), sums the scaled rows that
    arrive (`arrivals`), adds the node's own scaled row, scales by the node's weight and adds the bias
    (`finish`): `a n · (Σ_j h(sr j) · a(src j) + h i · a n) + b`.
  * The second scales every message by the product of its source's and its destination's weights before summing,
    and adds the node's own row times `q n`: `(Σ_j h(sr j) · (a(src j) · a(dst j)) + h i · q n) + b`.

  They agree when every weight is a nonnegative real with `a n · a n = q n`, and every message that arrives at a
  row of node `n` has destination `n`.
-/
import proofs.«129711_j730144441187_2_alg».proof.Proof.LibSelfLoopSum
import Idealize.ShloMosaic.Lib.ValueIdx

noncomputable section

namespace Gcn

open Idealize.ShloMosaic Idealize.ShloMosaic.ValueIdx

variable {N C K : ℕ} {ι : Type}

/-- The matrix product, entry by entry. -/
def lin (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- The positive part, entry by entry. -/
def relu (v : (⟨2, ![N, C]⟩ : Shape).Idx → EReal) : (⟨2, ![N, C]⟩ : Shape).Idx → EReal := fun i => max (v i) 0

/-- Every row scaled by its node's weight. -/
def scaleRows (a : Fin N → EReal) (h : (⟨2, ![N, C]⟩ : Shape).Idx → EReal) : (⟨2, ![N, C]⟩ : Shape).Idx → EReal :=
  fun i => h i * a (i 0)

/-- From zero, the sum of what the arriving messages carry. -/
def arrivals (S : (⟨2, ![N, C]⟩ : Shape).Idx → Finset ι) (sr : ι → (⟨2, ![N, C]⟩ : Shape).Idx)
    (g : (⟨2, ![N, C]⟩ : Shape).Idx → EReal) : (⟨2, ![N, C]⟩ : Shape).Idx → EReal :=
  fun i => 0 + ∑ j ∈ S i, g (sr j)

/-- The node's weight times (arrivals plus own scaled row), plus the bias. -/
def finish (a : Fin N → EReal) (ag hs : (⟨2, ![N, C]⟩ : Shape).Idx → EReal) (b : Fin C → EReal) :
    (⟨2, ![N, C]⟩ : Shape).Idx → EReal :=
  fun i => a (i 0) * (ag i + hs i) + b (i 1)

/-- The first arrangement of a layer. -/
def layerScaled (a : Fin N → EReal) (S : (⟨2, ![N, C]⟩ : Shape).Idx → Finset ι) (sr : ι → (⟨2, ![N, C]⟩ : Shape).Idx)
    (b : Fin C → EReal) (h : (⟨2, ![N, C]⟩ : Shape).Idx → EReal) : (⟨2, ![N, C]⟩ : Shape).Idx → EReal :=
  finish a (arrivals S sr (scaleRows a h)) (scaleRows a h) b

/-- The second arrangement of a layer. -/
def layerEdge (a q : Fin N → EReal) (S : (⟨2, ![N, C]⟩ : Shape).Idx → Finset ι) (sr : ι → (⟨2, ![N, C]⟩ : Shape).Idx)
    (dr : ι → Fin N) (b : Fin C → EReal) (h : (⟨2, ![N, C]⟩ : Shape).Idx → EReal) :
    (⟨2, ![N, C]⟩ : Shape).Idx → EReal :=
  fun i => ((0 + ∑ j ∈ S i, h (sr j) * (a ((sr j) 0) * a (dr j))) + h i * q (i 0)) + b (i 1)

/-! ## The definitions at an entry -/

theorem lin_apply (x : (⟨2, ![N, K]⟩ : Shape).Idx → EReal) (w : (⟨2, ![K, C]⟩ : Shape).Idx → EReal)
    (i : (⟨2, ![N, C]⟩ : Shape).Idx) : lin x w i = ∑ k : Fin K, x (ix2 (i 0) k) * w (ix2 k (i 1)) := rfl

theorem relu_apply (v : (⟨2, ![N, C]⟩ : Shape).Idx → EReal) (i : (⟨2, ![N, C]⟩ : Shape).Idx) : relu v i = max (v i) 0 := rfl

theorem scaleRows_apply (a : Fin N → EReal) (h : (⟨2, ![N, C]⟩ : Shape).Idx → EReal) (i : (⟨2, ![N, C]⟩ : Shape).Idx) :
    scaleRows a h i = h i * a (i 0) := rfl

theorem arrivals_apply (S : (⟨2, ![N, C]⟩ : Shape).Idx → Finset ι) (sr : ι → (⟨2, ![N, C]⟩ : Shape).Idx)
    (g : (⟨2, ![N, C]⟩ : Shape).Idx → EReal) (i : (⟨2, ![N, C]⟩ : Shape).Idx) :
    arrivals S sr g i = 0 + ∑ j ∈ S i, g (sr j) := rfl

theorem finish_apply (a : Fin N → EReal) (ag hs : (⟨2, ![N, C]⟩ : Shape).Idx → EReal) (b : Fin C → EReal)
    (i : (⟨2, ![N, C]⟩ : Shape).Idx) : finish a ag hs b i = a (i 0) * (ag i + hs i) + b (i 1) := rfl

theorem finish_ix2 (a : Fin N → EReal) (ag hs : (⟨2, ![N, C]⟩ : Shape).Idx → EReal) (b : Fin C → EReal)
    (r : Fin N) (k : Fin C) : finish a ag hs b (ix2 r k) = a r * (ag (ix2 r k) + hs (ix2 r k)) + b k := rfl

theorem layerEdge_apply (a q : Fin N → EReal) (S : (⟨2, ![N, C]⟩ : Shape).Idx → Finset ι) (sr : ι → (⟨2, ![N, C]⟩ : Shape).Idx)
    (dr : ι → Fin N) (b : Fin C → EReal) (h : (⟨2, ![N, C]⟩ : Shape).Idx → EReal) (i : (⟨2, ![N, C]⟩ : Shape).Idx) :
    layerEdge a q S sr dr b h i
      = ((0 + ∑ j ∈ S i, h (sr j) * (a ((sr j) 0) * a (dr j))) + h i * q (i 0)) + b (i 1) := rfl

/-- The two arrangements are one function. -/
theorem layerScaled_eq_layerEdge (a q : Fin N → EReal) (S : (⟨2, ![N, C]⟩ : Shape).Idx → Finset ι)
    (sr : ι → (⟨2, ![N, C]⟩ : Shape).Idx) (dr : ι → Fin N) (b : Fin C → EReal)
    (ha : ∀ n, 0 ≤ a n ∧ a n ≠ ⊤ ∧ a n * a n = q n) (hdr : ∀ i, ∀ j ∈ S i, dr j = i 0)
    (h : (⟨2, ![N, C]⟩ : Shape).Idx → EReal) :
    layerScaled a S sr b h = layerEdge a q S sr dr b h := by
  funext i
  obtain ⟨h0, ht, hq⟩ := ha (i 0)
  exact SelfLoopSum.scaled_eq (S i) (a (i 0)) h0 ht (fun j => h (sr j)) (fun j => a ((sr j) 0)) (fun j => a (dr j))
    (fun j hj => congrArg a (hdr i j hj)) (h i) (q (i 0)) (b (i 1)) hq

end Gcn

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.RefLayerA.lean ====
/-
  One layer of the reference, read as the edge-weighted arrangement.

  From the edge list the reference computes, once per layer and always the same way: the in-degree of every node
  plus one, its inverse square root `wt`, its reciprocal `selfWt`, and three index columns — the sources and
  the destinations with negative entries wrapped round (for the look-ups), and the raw destinations (for the
  accumulation).  A layer looks up the input's row at every edge's source, scales it by
  `wt(source) · wt(destination)`, accumulates the rows at the raw destinations from zero, adds the input times
  `selfWt` and the bias.  This file reads those operations at an entry.
-/
import proofs.«129711_j730144441187_2_alg».proof.Proof.Gen.ReferenceIdeal.Read
import proofs.«129711_j730144441187_2_alg».proof.Proof.Spec
import proofs.«129711_j730144441187_2_alg».proof.Proof.LibRowTake
import Idealize.ShloMosaic.Lib.ValueIdx
import Idealize.ShloMosaic.PureOps.Ideal.Laws

set_option maxRecDepth 16384

noncomputable section

namespace Cert.ReferenceIdeal.Layer

open Cert.ReferenceIdeal Cert.ReferenceIdeal.Gen Cert.ReferenceIdeal.Read Idealize.ShloMosaic Idealize.ShloMosaic.ValueIdx

/-- The update entries an accumulating scatter adds into entry `i` of its operand. -/
def landing {s si su : Shape} {w : ℕ} (d : ScatterDims s si su) (idx : IVec si w) (i : s.Idx) : Finset su.Idx :=
  Finset.univ.filter fun j => d.resultIdx? j idx = some i

/-- The accumulating scatter at an entry: the operand's entry plus the sum of the update entries landing there. -/
theorem scatterAdd_apply {s si su : Shape} {w : ℕ} (d : ScatterDims s si su) (x : FVec Ideal s .f32) (idx : IVec si w)
    (upd : FVec Ideal su .f32) (i : s.Idx) :
    Host.scatterAdd d x idx upd i = x i + ∑ j ∈ landing d idx i, upd j := rfl

/-- The edge list: row 0 the sources, row 1 the destinations. -/
abbrev Edges := IVec S2x1600000 32

/-- A node's weight: the inverse square root of its degree. -/
def wt (ei : Edges) (n : Fin 100000) : EReal := val_main_v16 (F := Ideal) ei (ix1 n)
/-- A node's self-loop weight: the reciprocal of its degree. -/
def selfWt (ei : Edges) (n : Fin 100000) : EReal := val_main_v46 (F := Ideal) ei (ix1 n)
/-- The messages that the accumulation adds into entry `i`. -/
def arriving (ei : Edges) (i : S100000x128.Idx) : Finset S1600000x128.Idx :=
  landing scatter_S100000x128_S1600000x1_S1600000x128_1_0_0_1 (val_main_v43 (F := Ideal) ei) i
/-- The entry of the input that message `j` carries. -/
def source (ei : Edges) (j : S1600000x128.Idx) : S100000x128.Idx :=
  gather_S100000x128_S1600000x1_S1600000x128_1_0_n_n_0_1_1128.operandIdx j (val_main_v37 (F := Ideal) ei)
/-- The node whose weight message `j` is scaled by as its destination's. -/
def dest (ei : Edges) (j : S1600000x128.Idx) : Fin 100000 :=
  RowTake.clampRow 100000 (by decide) ((val_main_v29 (F := Ideal) ei) (ix2 (j 0) (0 : Fin 1))).toInt
/-- The bias vector by lane. -/
def bias (b : FVec Ideal S128 .f32) (c : Fin 128) : EReal := b (ix1 c)

/-- One layer as the reference's operations on the layer's input `h`. -/
def ops (h : FVec Ideal S100000x128 .f32) (ei : Edges) (b : FVec Ideal S128 .f32) : FVec Ideal S100000x128 .f32 :=
  addf (addf (Host.scatterAdd scatter_S100000x128_S1600000x1_S1600000x128_1_0_0_1 (val_main_v42 (F := Ideal)) (val_main_v43 (F := Ideal) ei)
      (mulf (Host.gather gather_S100000x128_S1600000x1_S1600000x128_1_0_n_n_0_1_1128 h (val_main_v37 (F := Ideal) ei)) (val_main_v40 (F := Ideal) ei)))
    (mulf h (val_main_v48 (F := Ideal) ei))) (val_main_v52 (F := Ideal) b)

/-! ## The look-ups -/

/-- The row look-up reads, on the node axis, the clamp of the index column's entry. -/
theorem row_lookup (idx : IVec S1600000x1 32) (e : Fin 1600000) (c : Fin 128) :
    gather_S100000x128_S1600000x1_S1600000x128_1_0_n_n_0_1_1128.operandIdx (ix2 e c) idx = ix2 (RowTake.clampRow 100000 (by decide) (idx (ix2 e (0 : Fin 1))).toInt) c :=
  RowTake.row_operandIdx (N := 100000) (C := 128) (R := 1600000) (by decide) gather_S100000x128_S1600000x1_S1600000x128_1_0_n_n_0_1_1128.wf idx e c

/-- The flat look-up reads the clamp of the index column's entry. -/
theorem flat_lookup (idx : IVec S1600000x1 32) (e : Fin 1600000) :
    gather_S100000_S1600000x1_S1600000_n_0_n_n_0_1_1.operandIdx (ix1 e) idx = ix1 (RowTake.clampRow 100000 (by decide) (idx (ix2 e (0 : Fin 1))).toInt) :=
  RowTake.flat_operandIdx (N := 100000) (R := 1600000) (by decide) gather_S100000_S1600000x1_S1600000_n_0_n_n_0_1_1.wf idx e

/-- The two flat look-ups of the weights, at edge `e`. -/
theorem src_wt_apply (ei : Edges) (e : Fin 1600000) :
    val_main_v23 (F := Ideal) ei (ix1 e)
      = wt ei (RowTake.clampRow 100000 (by decide) ((val_main_v22 (F := Ideal) ei) (ix2 e (0 : Fin 1))).toInt) := by
  show val_main_v16 (F := Ideal) ei (gather_S100000_S1600000x1_S1600000_n_0_n_n_0_1_1.operandIdx (ix1 e) (val_main_v22 (F := Ideal) ei)) = _
  rw [flat_lookup]; rfl
theorem dst_wt_apply (ei : Edges) (e : Fin 1600000) :
    val_main_v30 (F := Ideal) ei (ix1 e)
      = wt ei (RowTake.clampRow 100000 (by decide) ((val_main_v29 (F := Ideal) ei) (ix2 e (0 : Fin 1))).toInt) := by
  show val_main_v16 (F := Ideal) ei (gather_S100000_S1600000x1_S1600000_n_0_n_n_0_1_1.operandIdx (ix1 e) (val_main_v29 (F := Ideal) ei)) = _
  rw [flat_lookup]; rfl

/-- The two wrapped source columns are one term. -/
theorem src_cols (ei : Edges) : val_main_v22 (F := Ideal) ei = val_main_v37 (F := Ideal) ei := rfl

/-- The node a message's row is looked up at, and the node whose weight scales it as destination. -/
theorem source_row (ei : Edges) (e : Fin 1600000) (c : Fin 128) :
    (source ei (ix2 e c)) 0 = RowTake.clampRow 100000 (by decide) ((val_main_v37 (F := Ideal) ei) (ix2 e (0 : Fin 1))).toInt := by
  unfold source
  rw [row_lookup]
theorem dest_row (ei : Edges) (e : Fin 1600000) (c : Fin 128) :
    dest ei (ix2 e c) = RowTake.clampRow 100000 (by decide) ((val_main_v29 (F := Ideal) ei) (ix2 e (0 : Fin 1))).toInt := rfl

/-- The per-edge scale of message `(e, c)`: the source's weight times the destination's. -/
theorem scale_apply (ei : Edges) (e : Fin 1600000) (c : Fin 128) :
    val_main_v40 (F := Ideal) ei (ix2 e c) = wt ei ((source ei (ix2 e c)) 0) * wt ei (dest ei (ix2 e c)) := by
  have hi : idx_main_v39 (idx_main_v40 (ix2 e c)) = (ix1 e : S1600000.Idx) :=
    funext fun a => Fin.ext (by match a with | ⟨0, _⟩ => rfl)
  rw [source_row, dest_row, val_main_v40_apply, val_main_v39_apply, hi, val_main_v31_apply, src_wt_apply, dst_wt_apply,
    src_cols]
  exact Ideal.mulf_def _ _

/-- The self-loop scale at entry `i`. -/
theorem self_apply (ei : Edges) (i : S100000x128.Idx) : val_main_v48 (F := Ideal) ei i = selfWt ei (i 0) := by
  rw [val_main_v48_apply, val_main_v47_apply]
  exact congrArg (val_main_v46 (F := Ideal) ei) (funext fun a => Fin.ext (by match a with | ⟨0, _⟩ => rfl))

/-- The bias at entry `i`. -/
theorem bias_apply (b : FVec Ideal S128 .f32) (i : S100000x128.Idx) : val_main_v52 (F := Ideal) b i = bias b (i 1) := by
  rw [val_main_v52_apply, val_main_v51_apply]
  exact congrArg b (funext fun a => Fin.ext (by match a with | ⟨0, _⟩ => rfl))

/-- The accumulation starts from zero. -/
theorem zero_apply (i : S100000x128.Idx) : val_main_v42 (F := Ideal) i = (0 : EReal) := by
  rw [val_main_v42_apply]
  exact Ideal.ofBits_zero_f32

/-- What message `(e, c)` adds: the input at its source, scaled by the two weights. -/
theorem msg_apply (h : FVec Ideal S100000x128 .f32) (ei : Edges) (e : Fin 1600000) (c : Fin 128) :
    mulf (Host.gather gather_S100000x128_S1600000x1_S1600000x128_1_0_n_n_0_1_1128 h (val_main_v37 (F := Ideal) ei)) (val_main_v40 (F := Ideal) ei) (ix2 e c)
      = h (source ei (ix2 e c)) * (wt ei ((source ei (ix2 e c)) 0) * wt ei (dest ei (ix2 e c))) := by
  have hg : Host.gather gather_S100000x128_S1600000x1_S1600000x128_1_0_n_n_0_1_1128 h (val_main_v37 (F := Ideal) ei) (ix2 e c) = h (source ei (ix2 e c)) := rfl
  rw [mulf_apply, hg, scale_apply]

/-- A layer's operations are the edge-weighted arrangement. -/
theorem ops_eq (h : FVec Ideal S100000x128 .f32) (ei : Edges) (b : FVec Ideal S128 .f32) :
    ops h ei b = Gcn.layerEdge (wt ei) (selfWt ei) (arriving ei) (source ei) (dest ei) (bias b) h := by
  funext i
  have hsum : ∑ j ∈ landing scatter_S100000x128_S1600000x1_S1600000x128_1_0_0_1 (val_main_v43 (F := Ideal) ei) i,
        mulf (Host.gather gather_S100000x128_S1600000x1_S1600000x128_1_0_n_n_0_1_1128 h (val_main_v37 (F := Ideal) ei)) (val_main_v40 (F := Ideal) ei) j
      = ∑ j ∈ arriving ei i, h (source ei j) * (wt ei ((source ei j) 0) * wt ei (dest ei j)) := by
    refine Finset.sum_congr rfl fun j _ => ?_
    obtain ⟨e, c, rfl⟩ : ∃ (e : Fin 1600000) (c : Fin 128), j = ix2 e c := ⟨j 0, j 1, eq_ix2 j⟩
    exact msg_apply h ei e c
  rw [Gcn.layerEdge_apply]
  unfold ops
  rw [addf_apply, addf_apply, mulf_apply, scatterAdd_apply, hsum, zero_apply, self_apply, bias_apply]

end Cert.ReferenceIdeal.Layer

end
-- ==== Proof.RefLayerB.lean ====
/-
  The node weights and the destinations of accumulated messages, in the reference.

  The degree of a node is a count of ones scattered at the wrapped destinations, from zero, plus one: a real
  number, at least one.  So the weight `wt n` is a nonnegative real with `wt n · wt n = selfWt n`.  A message
  accumulated into a row of node `n` has raw destination `n`, which is nonnegative and in range, so wrapping and
  clamping leave it alone: the destination weight it was scaled by is `wt n`.
-/
import proofs.«129711_j730144441187_2_alg».proof.Proof.RefLayerA
import proofs.«129711_j730144441187_2_alg».proof.Proof.LibSelfLoopSum

set_option maxRecDepth 16384

noncomputable section

namespace Cert.ReferenceIdeal.Layer

open Cert.ReferenceIdeal Cert.ReferenceIdeal.Gen Cert.ReferenceIdeal.Read Idealize.ShloMosaic Idealize.ShloMosaic.ValueIdx

/-! ## The weights -/

/-- The degree of node `n` is a positive real number. -/
theorem degree_real (ei : Edges) (n : Fin 100000) :
    ∃ r : ℝ, 0 < r ∧ val_main_v15 (F := Ideal) ei (ix1 n) = (r : EReal) := by
  refine ⟨((landing scatter_S100000_S1600000x1_S1600000_n_0_0_1 (val_main_v11 (F := Ideal) ei) (ix1 n : S100000.Idx)).card : ℝ) + 1, by positivity, ?_⟩
  have h13 : val_main_v13 (F := Ideal) ei (ix1 n) = val_main_v5 (F := Ideal) (ix1 n)
      + ∑ j ∈ landing scatter_S100000_S1600000x1_S1600000_n_0_0_1 (val_main_v11 (F := Ideal) ei) (ix1 n : S100000.Idx), val_main_v12 (F := Ideal) j :=
    scatterAdd_apply scatter_S100000_S1600000x1_S1600000_n_0_0_1 (val_main_v5 (F := Ideal)) (val_main_v11 (F := Ideal) ei) (val_main_v12 (F := Ideal)) (ix1 n)
  rw [val_main_v15_apply, Ideal.addf_def, h13]
  have h5 : val_main_v5 (F := Ideal) (ix1 n) = (0 : EReal) := by rw [val_main_v5_apply]; exact Ideal.ofBits_zero_f32
  have h12 : ∀ j, val_main_v12 (F := Ideal) j = (1 : EReal) := fun j => by rw [val_main_v12_apply]; exact SelfLoopSum.ofBits_one_f32
  have h14 : val_main_v14 (F := Ideal) (ix1 n) = (1 : EReal) := by rw [val_main_v14_apply]; exact SelfLoopSum.ofBits_one_f32
  rw [h5, h14, Finset.sum_congr rfl fun j _ => h12 j]
  exact SelfLoopSum.degree_eq _

/-- Every weight is a nonnegative real whose square is the self-loop weight. -/
theorem wt_facts (ei : Edges) (n : Fin 100000) : 0 ≤ wt ei n ∧ wt ei n ≠ ⊤ ∧ wt ei n * wt ei n = selfWt ei n := by
  obtain ⟨r, hr, e⟩ := degree_real ei n
  have h45 : val_main_v45 (F := Ideal) (ix1 n) = (1 : EReal) := by rw [val_main_v45_apply]; exact SelfLoopSum.ofBits_one_f32
  have hw : wt ei n = Ideal.rsqrt (r : EReal) := by
    unfold wt
    rw [val_main_v16_apply, Ideal.hostUnary_rsqrt_def, e]
  have hs : selfWt ei n = Ideal.div 1 (r : EReal) := by
    unfold selfWt
    rw [val_main_v46_apply, Ideal.hostDivf_def, e, h45]
  rw [hw, hs]
  exact SelfLoopSum.rsqrt_pos r hr

/-! ## The destinations -/

/-- A word that reads as a natural number is not negative, so wrapping leaves it alone. -/
theorem wrap_of_nonneg (v alt : BitVec 32) (k : ℕ) (h : v.toInt = (k : Int)) :
    Scalar.select (IntOp.cmpi .slt v 0#32) alt v = v := by
  have hs : v.slt 0#32 = false := by
    simp only [BitVec.slt, h, BitVec.toInt_zero, decide_eq_false_iff_not, not_lt]
    exact Int.natCast_nonneg k
  unfold IntOp.cmpi
  simp only [hs]
  exact select_zero alt v

/-- A message that arrives at entry `i` has destination `i`'s node. -/
theorem dest_of_arriving (ei : Edges) (i : S100000x128.Idx) (j : S1600000x128.Idx) (hj : j ∈ arriving ei i) :
    dest ei j = i 0 := by
  obtain ⟨e, c, rfl⟩ : ∃ (e : Fin 1600000) (c : Fin 128), j = ix2 e c := ⟨j 0, j 1, eq_ix2 j⟩
  have hres : scatter_S100000x128_S1600000x1_S1600000x128_1_0_0_1.resultIdx? (ix2 e c) (val_main_v43 (F := Ideal) ei) = some i := (Finset.mem_filter.mp hj).2
  have hrow : ((val_main_v43 (F := Ideal) ei) (ix2 e (0 : Fin 1))).toInt = ((i 0).val : Int) :=
    RowTake.rowScatter_row_of_some (N := 100000) (C := 128) (R := 1600000) scatter_S100000x128_S1600000x1_S1600000x128_1_0_0_1.wf _ e c i hres
  have e43 : val_main_v43 (F := Ideal) ei (ix2 e (0 : Fin 1)) = val_main_v3 (F := Ideal) ei (ix1 e) := by
    rw [val_main_v43_apply]
    exact congrArg (val_main_v3 (F := Ideal) ei) (funext fun a => Fin.ext (by match a with | ⟨0, _⟩ => rfl))
  have hv3 : (val_main_v3 (F := Ideal) ei (ix1 e)).toInt = ((i 0).val : Int) := by rw [← e43]; exact hrow
  have e29 : val_main_v29 (F := Ideal) ei (ix2 e (0 : Fin 1)) = val_main_v3 (F := Ideal) ei (ix1 e) := by
    rw [val_main_v29_apply]
    have hix : idx_main_v29 (ix2 e (0 : Fin 1)) = (ix1 e : S1600000.Idx) :=
      funext fun a => Fin.ext (by match a with | ⟨0, _⟩ => rfl)
    rw [hix, val_main_v28_apply, val_main_v25_apply]
    have h24 : val_main_v24 (F := Ideal) (ix1 e) = 0#32 := by rw [val_main_v24_apply]; rfl
    rw [h24]
    exact wrap_of_nonneg _ _ (i 0).val hv3
  rw [dest_row, e29]
  exact RowTake.clampRow_of_eq _ _ (i 0) hv3

/-- A layer of the reference is the scaled arrangement of the same layer. -/
theorem ops_eq_scaled (h : FVec Ideal S100000x128 .f32) (ei : Edges) (b : FVec Ideal S128 .f32) :
    ops h ei b = Gcn.layerScaled (wt ei) (arriving ei) (source ei) (bias b) h :=
  (ops_eq h ei b).trans
    (Gcn.layerScaled_eq_layerEdge (wt ei) (selfWt ei) (arriving ei) (source ei) (dest ei) (bias b) (wt_facts ei)
      (dest_of_arriving ei) h).symm

end Cert.ReferenceIdeal.Layer

end
-- ==== Proof.RefLayerC.lean ====
/-
  The reference's two layers are the same operations applied to two inputs.

  The second layer recomputes the degrees, the weights and the index columns from the edge list with the same
  operations as the first, so its operations on the second layer's input are, term for term, those of the first
  layer on its own.
-/
import proofs.«129711_j730144441187_2_alg».proof.Proof.RefLayerA

set_option maxRecDepth 16384

noncomputable section

namespace Cert.ReferenceIdeal.Layer

open Cert.ReferenceIdeal Cert.ReferenceIdeal.Gen Cert.ReferenceIdeal.Read Idealize.ShloMosaic Idealize.ShloMosaic.ValueIdx

theorem layer1 (x0 : FVec Ideal S100000x128 .f32) (ei : Edges) (x2 : FVec Ideal S128x128 .f32) (x3 : FVec Ideal S128 .f32) :
    val_main_v53 (F := Ideal) x0 ei x2 x3 = ops (val_main_v4 (F := Ideal) x0 x2) ei x3 := rfl

/-- The second layer's recomputed per-edge scale, self-loop scale, index columns and zero are the first layer's. -/
theorem scale2 (ei : Edges) : val_main_v91 (F := Ideal) ei = val_main_v40 (F := Ideal) ei := rfl
theorem self2 (ei : Edges) : val_main_v99 (F := Ideal) ei = val_main_v48 (F := Ideal) ei := rfl
theorem src2 (ei : Edges) : val_main_v88 (F := Ideal) ei = val_main_v37 (F := Ideal) ei := rfl
theorem dst2 (ei : Edges) : val_main_v94 (F := Ideal) ei = val_main_v43 (F := Ideal) ei := rfl
theorem zero2 : val_main_v93 (F := Ideal) = val_main_v42 (F := Ideal) := rfl
theorem bias2 (x5 : FVec Ideal S128 .f32) : val_main_v103 (F := Ideal) x5 = val_main_v52 (F := Ideal) x5 := rfl

theorem layer2 (x0 : FVec Ideal S100000x128 .f32) (ei : Edges) (x2 : FVec Ideal S128x128 .f32) (x3 : FVec Ideal S128 .f32)
    (x4 : FVec Ideal S128x128 .f32) (x5 : FVec Ideal S128 .f32) :
    val_main_v104 (F := Ideal) x0 ei x2 x3 x4 x5 = ops (val_main_v55 (F := Ideal) x0 ei x2 x3 x4) ei x5 := by
  unfold val_main_v104 val_main_v101 val_main_v95 val_main_v92 val_main_v89 val_main_v100 ops
  rw [scale2, self2, src2, dst2, zero2, bias2]

end Cert.ReferenceIdeal.Layer

end
-- ==== Proof.Bridge.lean ====
/-
  Both programs' results as one expression.

  The kernel's three output functions are, over the node weights `wt`: rows of a product scaled by the weights;
  the same after the positive part of a finished layer; and a finished layer.  With the neighbour sum read as
  "from zero, the sum of what the arriving messages carry", the kernel's result is the scaled arrangement of the
  second layer applied to the product of the second weight matrix with the positive part of the scaled
  arrangement of the first layer.  The reference's result is the same expression with each layer in the
  edge-weighted arrangement, which is the same function.
-/
import proofs.«129711_j730144441187_2_alg».proof.Proof.ChainB
import proofs.«129711_j730144441187_2_alg».proof.Proof.RefLayerB
import proofs.«129711_j730144441187_2_alg».proof.Proof.RefLayerC
import proofs.«129711_j730144441187_2_alg».proof.Proof.Spec
import proofs.«129711_j730144441187_2_alg».proof.Proof.LibKeepdims
import proofs.«129711_j730144441187_2_alg».proof.Proof.LibPlainDot

set_option maxRecDepth 16384

noncomputable section

namespace Cert.Bridge

open Idealize.ShloMosaic Idealize.ShloMosaic.TcCoe Idealize.ShloMosaic.ValueIdx Idealize.SL.Sem
open Cert.ReferenceIdeal.Read Cert.ReferenceIdeal.Layer

/-- The common expression: two layers in the scaled arrangement. -/
def net (x : FVec Ideal Cert.ReferenceIdeal.S100000x128 .f32) (ei : Edges) (wa : FVec Ideal Cert.ReferenceIdeal.S128x128 .f32)
    (b1 : FVec Ideal Cert.ReferenceIdeal.S128 .f32) (wb : FVec Ideal Cert.ReferenceIdeal.S128x128 .f32)
    (b2 : FVec Ideal Cert.ReferenceIdeal.S128 .f32) : FVec Ideal Cert.ReferenceIdeal.S100000x128 .f32 :=
  Gcn.layerScaled (wt ei) (arriving ei) (source ei) (bias b2)
    (Gcn.lin (Gcn.relu (Gcn.layerScaled (wt ei) (arriving ei) (source ei) (bias b1) (Gcn.lin x wa))) wb)

/-! ## The reference -/

/-- The host's matrix product is the plain one. -/
theorem dot_lin (x : FVec Ideal Cert.ReferenceIdeal.S100000x128 .f32) (w : FVec Ideal Cert.ReferenceIdeal.S128x128 .f32) :
    Host.dotGeneral Cert.ReferenceIdeal.dot_S100000x128_S128x128_S100000x128_1_0_0_1_n_n none x w = Gcn.lin x w := by
  funext i
  obtain ⟨p, c, rfl⟩ : ∃ (p : Fin 100000) (c : Fin 128), i = ix2 p c := ⟨i 0, i 1, eq_ix2 i⟩
  rw [Gcn.lin_apply]
  exact PlainDot.dotGeneral_apply _ none rfl rfl lhs_main_v4_0 lhs_main_v4_1 rhs_main_v4_0 rhs_main_v4_1 x w p c

/-- The reference's result is the common expression. -/
theorem reference_eq (x : FVec Ideal Cert.ReferenceIdeal.S100000x128 .f32) (ei : Edges)
    (wa : FVec Ideal Cert.ReferenceIdeal.S128x128 .f32) (b1 : FVec Ideal Cert.ReferenceIdeal.S128 .f32)
    (wb : FVec Ideal Cert.ReferenceIdeal.S128x128 .f32) (b2 : FVec Ideal Cert.ReferenceIdeal.S128 .f32) :
    val_main_v104 (F := Ideal) x ei wa b1 wb b2 = net x ei wa b1 wb b2 := by
  have h4 : val_main_v4 (F := Ideal) x wa = Gcn.lin x wa := dot_lin x wa
  have h53 : val_main_v53 (F := Ideal) x ei wa b1 = Gcn.layerScaled (wt ei) (arriving ei) (source ei) (bias b1) (Gcn.lin x wa) := by
    rw [layer1, ops_eq_scaled, h4]
  have h54 : val_main_v54 (F := Ideal) x ei wa b1 = Gcn.relu (val_main_v53 (F := Ideal) x ei wa b1) := by
    funext j
    rw [val_main_v54_apply, Ideal.maximumf_def, val_main_call0_v0_apply, Gcn.relu_apply]
    exact congrArg (max (val_main_v53 (F := Ideal) x ei wa b1 j)) Ideal.ofBits_zero_f32
  have h55 : val_main_v55 (F := Ideal) x ei wa b1 wb = Gcn.lin (Gcn.relu (val_main_v53 (F := Ideal) x ei wa b1)) wb := by
    rw [← h54]; exact dot_lin _ wb
  rw [layer2, ops_eq_scaled, h55, h53]
  unfold net
  rfl

/-! ## The kernel -/

open Cert.KernelIdeal.Chain

variable (m : (ℓ : Loc Cert.KernelIdeal.nD Cert.KernelIdeal.τ Cert.KernelIdeal.sig) → Buf (Elt Ideal) ℓ) (c : Dev Cert.KernelIdeal.nD)

/-- A `[b]` vector cast to the row `[1, b]` reads, at `(u, k)`, the operand at `k`. -/
theorem shapeCast_b_1b_apply {α : Type} {b : ℕ} (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- The weight column at row `n` is node `n`'s weight. -/
theorem dcol_apply (n : Fin 100000) : dcol m c (ix2 n (0 : Fin 1)) = wt (m ((c : Thread Cert.KernelIdeal.nD Cert.KernelIdeal.τ).loc Cert.KernelIdeal.main_arg1)) n :=
  Keepdims.shapeCast_a_a1_apply _ _ n 0

theorem b1row_apply (k : Fin 128) : b1row m c (ix2 (0 : Fin 1) k) = bias (m ((c : Thread Cert.KernelIdeal.nD Cert.KernelIdeal.τ).loc Cert.KernelIdeal.main_arg3)) k :=
  shapeCast_b_1b_apply _ _ 0 k

theorem b2row_apply (k : Fin 128) : b2row m c (ix2 (0 : Fin 1) k) = bias (m ((c : Thread Cert.KernelIdeal.nD Cert.KernelIdeal.τ).loc Cert.KernelIdeal.main_arg5)) k :=
  shapeCast_b_1b_apply _ _ 0 k

/-- The neighbour sum is "from zero, the sum of what the arriving messages carry". -/
theorem nbrSum_eq (h : FVec Ideal Cert.ReferenceIdeal.S100000x128 .f32) (ei : Edges) :
    nbrSum h ei = Gcn.arrivals (arriving ei) (source ei) h := by
  funext i
  rw [Gcn.arrivals_apply]
  unfold nbrSum
  rw [scatterAdd_apply, zero_apply]
  exact congrArg (fun s => (0 : EReal) + s) (Finset.sum_congr rfl fun j _ => rfl)

/-- The first call's output: the product's rows scaled by the weights. -/
theorem hs1_eq : hs1 m c = Gcn.scaleRows (wt (m ((c : Thread Cert.KernelIdeal.nD Cert.KernelIdeal.τ).loc Cert.KernelIdeal.main_arg1))) (Gcn.lin (m ((c : Thread Cert.KernelIdeal.nD Cert.KernelIdeal.τ).loc Cert.KernelIdeal.main_arg0)) (m ((c : Thread Cert.KernelIdeal.nD Cert.KernelIdeal.τ).loc Cert.KernelIdeal.main_arg2))) := by
  funext i
  rw [Gcn.scaleRows_apply, Gcn.lin_apply]
  unfold hs1 Cert.KernelIdeal.Reg0.out
  rw [dcol_apply m c (i 0)]

/-- The second call's output: the positive part of the finished first layer, multiplied into the second weight
    matrix, rows scaled by the weights. -/
theorem hs2_eq : hs2 m c = Gcn.scaleRows (wt (m ((c : Thread Cert.KernelIdeal.nD Cert.KernelIdeal.τ).loc Cert.KernelIdeal.main_arg1)))
    (Gcn.lin (Gcn.relu (Gcn.finish (wt (m ((c : Thread Cert.KernelIdeal.nD Cert.KernelIdeal.τ).loc Cert.KernelIdeal.main_arg1))) (nbrSum (hs1 m c) (m ((c : Thread Cert.KernelIdeal.nD Cert.KernelIdeal.τ).loc Cert.KernelIdeal.main_arg1))) (hs1 m c) (bias (m ((c : Thread Cert.KernelIdeal.nD Cert.KernelIdeal.τ).loc Cert.KernelIdeal.main_arg3)))))
      (m ((c : Thread Cert.KernelIdeal.nD Cert.KernelIdeal.τ).loc Cert.KernelIdeal.main_arg4))) := by
  funext i
  rw [Gcn.scaleRows_apply, Gcn.lin_apply]
  unfold hs2 Cert.KernelIdeal.Reg1.out
  rw [dcol_apply m c (i 0)]
  refine congrArg (· * wt (m ((c : Thread Cert.KernelIdeal.nD Cert.KernelIdeal.τ).loc Cert.KernelIdeal.main_arg1)) (i 0)) (Finset.sum_congr rfl fun k _ => ?_)
  rw [Gcn.relu_apply, Gcn.finish_ix2 (N := 100000) (C := 128) _ _ _ _ (i 0) k, b1row_apply m c k]

/-- The third call's output: the finished second layer. -/
theorem out_eq : Cert.KernelIdeal.Chain.out m c = Gcn.finish (wt (m ((c : Thread Cert.KernelIdeal.nD Cert.KernelIdeal.τ).loc Cert.KernelIdeal.main_arg1))) (nbrSum (hs2 m c) (m ((c : Thread Cert.KernelIdeal.nD Cert.KernelIdeal.τ).loc Cert.KernelIdeal.main_arg1))) (hs2 m c)
    (bias (m ((c : Thread Cert.KernelIdeal.nD Cert.KernelIdeal.τ).loc Cert.KernelIdeal.main_arg5))) := by
  funext i
  rw [Gcn.finish_apply]
  unfold Cert.KernelIdeal.Chain.out Cert.KernelIdeal.Reg2.out
  have hi : (ix2 (i 0) (i 1) : Cert.KernelIdeal.S100000x128.Idx) = i := (eq_ix2 i).symm
  rw [dcol_apply m c (i 0), b2row_apply m c (i 1), hi]

/-- The kernel's result is the common expression. -/
theorem kernel_eq :
    Cert.KernelIdeal.Chain.out m c = net (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  rw [out_eq, hs2_eq, nbrSum_eq, nbrSum_eq, hs1_eq]
  unfold net Gcn.layerScaled
  rfl

end Cert.Bridge

end
-- ==== Proof.lean ====
/-
  A two-layer graph convolution: the kernel against its reference, on the extended reals.

  Both programs compute, from node features `x : [100000, 128]`, an edge list `[2, 1600000]`, two weight matrices
  and two bias vectors,
      layer(h) = D^(-1/2) · (A + I) · D^(-1/2) · h + b     with   h ↦ x·W₁,  then  h ↦ relu(·)·W₂,
  where `A` adds, for every edge, the source's row into the destination's row and `D` is the in-degree plus one.
  The reference scales every edge's message by `d(src)·d(dst)`, `d = D^(-1/2)`, before accumulating it, and adds
  `h / D` for the self-loop.  The kernel scales the rows by `d` once inside its first and second pallas_call,
  accumulates the scaled rows unweighted, and multiplies by `d` again in the call that finishes the layer.  The
  two agree because `d(n)` is a nonnegative real for every node (the degree is a count plus one), so it
  distributes over sums of extended reals of any kind, and `d·d = 1/D`; the destination weight a message is scaled
  by is the weight of the row it is accumulated into, since an accumulated message has a nonnegative in-range
  destination, which wrapping and clamping leave alone.  The precondition is never opened.

  The frames of the two kernel programs and the reference's run are the generated ones.  The kernel's result buffer is
  read off the generated launch (the contents at the last segment boundary), each pallas_call's output array is one
  function of its input arrays (twenty row tiles cover it), and the host stretches between the calls are read
  operation by operation.
-/
import proofs.«129711_j730144441187_2_alg».proof.Defs
import proofs.«129711_j730144441187_2_alg».proof.Proof.Gen.Kernel
import proofs.«129711_j730144441187_2_alg».proof.Proof.Gen.Kernel.Skeleton
import proofs.«129711_j730144441187_2_alg».proof.Proof.Gen.Kernel.Launch
import proofs.«129711_j730144441187_2_alg».proof.Proof.Gen.Kernel.Points
import proofs.«129711_j730144441187_2_alg».proof.Proof.Gen.Kernel.Frame
import proofs.«129711_j730144441187_2_alg».proof.Proof.Gen.KernelIdeal
import proofs.«129711_j730144441187_2_alg».proof.Proof.Gen.KernelIdeal.Skeleton
import proofs.«129711_j730144441187_2_alg».proof.Proof.Gen.KernelIdeal.Launch
import proofs.«129711_j730144441187_2_alg».proof.Proof.Gen.KernelIdeal.Points
import proofs.«129711_j730144441187_2_alg».proof.Proof.Gen.KernelIdeal.Frame
import proofs.«129711_j730144441187_2_alg».proof.Proof.Gen.ReferenceIdeal
import proofs.«129711_j730144441187_2_alg».proof.Proof.Gen.Pre_finite_inputs
import proofs.«129711_j730144441187_2_alg».proof.Proof.Gen.ReferenceIdeal.Run
import proofs.«129711_j730144441187_2_alg».proof.Proof.Gen.ReferenceIdeal.Read
import proofs.«129711_j730144441187_2_alg».proof.Proof.KernelRun
import proofs.«129711_j730144441187_2_alg».proof.Proof.ChainB
import proofs.«129711_j730144441187_2_alg».proof.Proof.Bridge
import Idealize.ShloMosaic.Adequacy
import Idealize.ShloMosaic.Init

noncomputable section

namespace Cert.Proof

open Idealize.ShloMosaic Idealize.SL.Sem

/-- The two idealized programs end with equal results: the kernel's result buffer holds the common two-layer
    expression of the arguments, and so does the reference's. -/
theorem algebraic : Cert.algebraic_KernelIdeal_ReferenceIdeal := by
  intro m ρ m' ρ' _ hagree
  refine ⟨fun c => Cert.KernelIdeal.Chain.out m c, ?_, ?_⟩
  · exact (θ_run Cert.KernelIdeal.defs _ _).mono
      (fun r h c => ⟨(h c).1.trans (Cert.KernelIdeal.Chain.result m ρ c), (h c).2⟩)
      (Cert.KernelIdeal.Out.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v104_eq, (hagree c).1, (hagree c).2.1, (hagree c).2.2.1, (hagree c).2.2.2.1,
      (hagree c).2.2.2.2.1, (hagree c).2.2.2.2.2]
    exact (Cert.Bridge.reference_eq _ _ _ _ _ _).trans (Cert.Bridge.kernel_eq m c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
